-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x8192 : Shape := ⟨2, ![8192, 8192]⟩
abbrev S_ : Shape := ⟨0, ![]⟩

class Facts : Prop where
  bcast_S_S8192x8192 : S_.BroadcastsInDim S8192x8192 (![] : Fin 0 → Fin S8192x8192.rank)
  reducesTo_S8192x8192_S_d0_1 : S8192x8192.ReducesTo [0, 1] S_
  h_S_ : 0 < S_.numel

variable [Facts]

def fn {F : FTy → Type} [FloatOps F] (main_arg0 : FVec F S8192x8192 .f32) : IVec S_ 1 :=
  let main_v0 : FVec F S8192x8192 .f32 := Host.absf main_arg0
  let main_cst : FVec F S_ .f32 := constant S_ .f32 0x7F800000#32
  let main_v1 : FVec F S8192x8192 .f32 := broadcastInDim S8192x8192 ![] bcast_S_S8192x8192 main_cst
  let main_v2 : IVec S8192x8192 1 := cmpf .olt main_v0 main_v1
  let main_c : IVec S_ 1 := constantI S_ 1 1#1
  let main_v3 : IVec S_ 1 := (fun x v => Host.reduce IntOp.andi x v reducesTo_S8192x8192_S_d0_1 h_S_) main_v2 main_c
  main_v3
-- ==== Kernel.lean ====
abbrev S8192x8192 : Shape := ⟨2, ![8192, 8192]⟩
abbrev S256x8192 : Shape := ⟨2, ![256, 8192]⟩

abbrev nBuf : Space → Nat
  | .hbm => 2
  | .vmem => 4
  | .smem => 0
  | _ => 0

abbrev bufTy : (tb : Table) → Fin (tcTables nBuf tb) → BufTy
  | .hbm, ⟨0, _⟩ => ⟨S8192x8192, .f32⟩
  | .hbm, ⟨1, _⟩ => ⟨S8192x8192, .f32⟩
  | .local _ .vmem, ⟨0, _⟩ => ⟨S256x8192, .f32⟩
  | .local _ .vmem, ⟨1, _⟩ => ⟨S256x8192, .f32⟩
  | .local _ .vmem, ⟨2, _⟩ => ⟨S256x8192, .f32⟩
  | .local _ .vmem, ⟨3, _⟩ => ⟨S256x8192, .f32⟩
  | _, _ => ⟨S8192x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S256x8192_S256x8192_0_0 : ∀ a, (![0, 0] : Fin 2 → Nat) a + S256x8192.size a ≤ S256x8192.size a
  h_S256x8192 : 0 < S256x8192.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S8192x8192.size a
  hwx0_1 : ∀ i : grid0.Coords, EltTy.bits .f32 = 32 ∨ (Rect.block (s := S8192x8192) S256x8192.size (cc0_transform_1 i) (hinb0_1 i)).WholeWords (EltTy.packing .f32)

variable [Facts₀]

abbrev win0_0 : Pipeline.Window sig grid0 :=
  Pipeline.Window.ofSpec (Memref.whole main_arg0) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S256x8192.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where
  halias0_1 : Pipeline.Aliased win0 0 1

variable [Facts]
-- ==== ReferenceIdeal.lean ====
abbrev S8192x8192 : Shape := ⟨2, ![8192, 8192]⟩
abbrev S67108864 : Shape := ⟨1, ![67108864]⟩
abbrev S_ : Shape := ⟨0, ![]⟩
abbrev S67108864x1 : Shape := ⟨2, ![67108864, 1]⟩

abbrev nBuf : Space → Nat
  | .hbm => 47
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S67108864, .f32⟩
  | .hbm, ⟨2, _⟩ => ⟨S_, .f32⟩
  | .hbm, ⟨3, _⟩ => ⟨S67108864, .f32⟩
  | .hbm, ⟨4, _⟩ => ⟨S67108864, .i1⟩
  | .hbm, ⟨5, _⟩ => ⟨S_, .i32⟩
  | .hbm, ⟨6, _⟩ => ⟨S_, .i32⟩
  | .hbm, ⟨7, _⟩ => ⟨S67108864, .i32⟩
  | .hbm, ⟨8, _⟩ => ⟨S67108864, .i32⟩
  | .hbm, ⟨9, _⟩ => ⟨S67108864, .i32⟩
  | .hbm, ⟨10, _⟩ => ⟨S67108864, .i32⟩
  | .hbm, ⟨11, _⟩ => ⟨S67108864, .i32⟩
  | .hbm, ⟨12, _⟩ => ⟨S67108864, .i32⟩
  | .hbm, ⟨13, _⟩ => ⟨S67108864, .i32⟩
  | .hbm, ⟨14, _⟩ => ⟨S_, .i32⟩
  | .hbm, ⟨15, _⟩ => ⟨S67108864, .i32⟩
  | .hbm, ⟨16, _⟩ => ⟨S67108864, .i1⟩
  | .hbm, ⟨17, _⟩ => ⟨S_, .i32⟩
  | .hbm, ⟨18, _⟩ => ⟨S67108864, .i32⟩
  | .hbm, ⟨19, _⟩ => ⟨S67108864, .i32⟩
  | .hbm, ⟨20, _⟩ => ⟨S67108864, .i32⟩
  | .hbm, ⟨21, _⟩ => ⟨S67108864x1, .i32⟩
  | .hbm, ⟨22, _⟩ => ⟨S67108864, .i1⟩
  | .hbm, ⟨23, _⟩ => ⟨S_, .i32⟩
  | .hbm, ⟨24, _⟩ => ⟨S67108864, .i32⟩
  | .hbm, ⟨25, _⟩ => ⟨S67108864, .i1⟩
  | .hbm, ⟨26, _⟩ => ⟨S_, .i32⟩
  | .hbm, ⟨27, _⟩ => ⟨S67108864, .i32⟩
  | .hbm, ⟨28, _⟩ => ⟨S67108864, .i32⟩
  | .hbm, ⟨29, _⟩ => ⟨S67108864, .i32⟩
  | .hbm, ⟨30, _⟩ => ⟨S67108864x1, .i32⟩
  | .hbm, ⟨31, _⟩ => ⟨S67108864, .f32⟩
  | .hbm, ⟨32, _⟩ => ⟨S_, .f32⟩
  | .hbm, ⟨33, _⟩ => ⟨S67108864, .f32⟩
  | .hbm, ⟨34, _⟩ => ⟨S67108864, .f32⟩
  | .hbm, ⟨35, _⟩ => ⟨S_, .f32⟩
  | .hbm, ⟨36, _⟩ => ⟨S67108864, .f32⟩
  | .hbm, ⟨37, _⟩ => ⟨S_, .i32⟩
  | .hbm, ⟨38, _⟩ => ⟨S67108864, .i32⟩
  | .hbm, ⟨39, _⟩ => ⟨S67108864, .i1⟩
  | .hbm, ⟨40, _⟩ => ⟨S_, .i32⟩
  | .hbm, ⟨41, _⟩ => ⟨S67108864, .i32⟩
  | .hbm, ⟨42, _⟩ => ⟨S67108864, .i32⟩
  | .hbm, ⟨43, _⟩ => ⟨S67108864, .i32⟩
  | .hbm, ⟨44, _⟩ => ⟨S67108864x1, .i32⟩
  | .hbm, ⟨45, _⟩ => ⟨S67108864, .f32⟩
  | .hbm, ⟨46, _⟩ => ⟨S8192x8192, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_v3 : Ref sig .tc := ⟨.hbm, 9, rfl⟩
abbrev main_v4 : Ref sig .tc := ⟨.hbm, 10, rfl⟩
abbrev main_call1_v0 : Ref sig .tc := ⟨.hbm, 11, rfl⟩
abbrev main_call1_v1_0 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_3 : Ref sig .tc := ⟨.hbm, 23, rfl⟩
abbrev main_v13 : Ref sig .tc := ⟨.hbm, 24, rfl⟩
abbrev main_v14 : Ref sig .tc := ⟨.hbm, 25, rfl⟩
abbrev main_c_4 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_call2_v0 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_c_7 : Ref sig .tc := ⟨.hbm, 37, rfl⟩
abbrev main_v22 : Ref sig .tc := ⟨.hbm, 38, rfl⟩
abbrev main_v23 : Ref sig .tc := ⟨.hbm, 39, rfl⟩
abbrev main_c_8 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩

abbrev nD : Nat := 1
abbrev τ : Topo := Topo.v7x

variable {F : FTy → Type} [FloatOps F]

class Facts₀ : Prop where
  shapeCasts_S8192x8192_S67108864 : S8192x8192.ShapeCasts S67108864
  bcast_S_S67108864 : S_.BroadcastsInDim S67108864 (![] : Fin 0 → Fin S67108864.rank)
  bcast_S67108864_S67108864x1_0 : S67108864.BroadcastsInDim S67108864x1 (![0] : Fin 1 → Fin S67108864x1.rank)
  shapeCasts_S67108864_S8192x8192 : S67108864.ShapeCasts S8192x8192
  gather_S67108864_S67108864x1_S67108864_n_0_n_n_0_1_1_wf : GatherDims.WF S67108864 S67108864x1 S67108864 [] [0] [] [0] [] 1 ![1]
  scatter_S67108864_S67108864x1_S67108864_n_0_0_1_wf : ScatterDims.WF S67108864 S67108864x1 S67108864 [] [0] [0] 1

variable [Facts₀]

def comparator_i32_i32_d0 : BitVec 32 × BitVec 32 → BitVec 32 × BitVec 32 → BitVec 1 :=
  fun l r =>
    let v2 := IntOp.cmpi .slt l.1 r.1
    v2
def gather_S67108864_S67108864x1_S67108864_n_0_n_n_0_1_1 : GatherDims S67108864 S67108864x1 S67108864 where
  offsetDims := []
  collapsedSliceDims := [0]
  operandBatchingDims := []
  startIndicesBatchingDims := []
  startIndexMap := [0]
  indexVectorDim := 1
  sliceSizes := ![1]
  wf := gather_S67108864_S67108864x1_S67108864_n_0_n_n_0_1_1_wf
def scatter_S67108864_S67108864x1_S67108864_n_0_0_1 : ScatterDims S67108864 S67108864x1 S67108864 where
  updateWindowDims := []
  insertedWindowDims := [0]
  scatterDimsToOperandDims := [0]
  indexVectorDim := 1
  wf := scatter_S67108864_S67108864x1_S67108864_n_0_0_1_wf

class Facts : Prop extends Facts₀ where

variable [Facts]
-- ==== Proof.LibScatterByTarget.lean ====
/-
  A scatter whose update values depend only on where they land.

  A scatter whose body returns the update is a left fold of overwrites over the update indices: the update at j
  replaces the result's element at the index j lands at, and is dropped when it lands nowhere. Suppose there is a
  function g of the operand's indices such that every update that lands at an index i has the value g i. Then it does
  not matter in which order the updates are applied, nor how many of them share a target: at an index i' the result is
  g i' when some update lands at i', and the operand's element when none does. In particular, when every index is the
  target of some update the result is g.

  This is proved first for a fold over any list of steps that each overwrite at most one index
  (foldl_overwrite_by_target), then for the scatter (scatter_by_target, scatter_eq_of_onto).
-/
import Idealize.ShloMosaic.PureOps.ShapeOps

namespace Cert.ScatterByTarget

open Idealize.ShloMosaic

/-- Overwriting, folded over a list of steps. Step `k` has a target `R k` (or none) and a value `v k`: with a target
    `i` it makes the function `v k` at `i` and leaves it alone elsewhere, with no target it leaves it alone
    everywhere. If the value of every step that has a target `i` is `g i`, then after the whole list the function
    is, at `i'`, either `g i'`, and then some step of the list targeted `i'`, or what it was at the start, and then
    no step of the list targeted `i'`. -/
theorem foldl_overwrite_by_target {ι κ α : Type} (R : κ → Option ι) (v : κ → α) (g : ι → α)
    (hv : ∀ k i, R k = some i → v k = g i) (step : (ι → α) → κ → ι → α)
    (h_hit : ∀ r k i, R k = some i → step r k i = v k)
    (h_miss : ∀ r k i i', R k = some i → i' ≠ i → step r k i' = r i')
    (h_none : ∀ r k, R k = none → step r k = r) (i' : ι) :
    ∀ (l : List κ) (x : ι → α),
      (l.foldl step x i' = g i' ∧ ∃ k ∈ l, R k = some i') ∨ (l.foldl step x i' = x i' ∧ ∀ k ∈ l, R k ≠ some i')
  | [], x => Or.inr ⟨rfl, fun k hk => absurd hk (List.not_mem_nil)⟩
  | k :: l, x => by
    rw [List.foldl_cons]
    rcases foldl_overwrite_by_target R v g hv step h_hit h_miss h_none i' l (step x k) with ⟨h1, n, hn, hR⟩ | ⟨h1, h2⟩
    · exact Or.inl ⟨h1, n, List.mem_cons_of_mem _ hn, hR⟩
    · rw [h1]
      cases hk : R k with
      | none =>
        rw [h_none x k hk]
        refine Or.inr ⟨rfl, fun n hn => ?_⟩
        rcases List.mem_cons.1 hn with rfl | hn
        · rw [hk]; exact (Option.some_ne_none i').symm
        · exact h2 n hn
      | some i =>
        by_cases hi : i' = i
        · subst hi
          exact Or.inl ⟨(h_hit x k _ hk).trans (hv k _ hk), k, List.mem_cons_self, hk⟩
        · refine Or.inr ⟨h_miss x k i i' hk hi, fun n hn => ?_⟩
          rcases List.mem_cons.1 hn with rfl | hn
          · rw [hk]; intro e; exact hi (Option.some.inj e).symm
          · exact h2 n hn

/-- A scatter whose body returns the update, every update that lands at `i` having the value `g i`: at `i'` the
    result is `g i'`, and then some update lands at `i'`, or it is the operand's element, and then no update lands
    at `i'`. -/
theorem scatter_by_target {s si u : Shape} {α : Type} {w : Nat} (d : ScatterDims s si u) (x : s.Idx → α) (idx : IVec si w)
    (upd : u.Idx → α) (g : s.Idx → α) (hupd : ∀ j i, d.resultIdx? j idx = some i → upd j = g i) (i' : s.Idx) :
    (Host.scatter d (fun _ b => b) x idx upd i' = g i' ∧ ∃ j, d.resultIdx? j idx = some i')
      ∨ (Host.scatter d (fun _ b => b) x idx upd i' = x i' ∧ ∀ j, d.resultIdx? j idx ≠ some i') := by
  have key := foldl_overwrite_by_target (fun n => d.resultIdx? (u.rowMajor.symm n) idx) (fun n => upd (u.rowMajor.symm n)) g
    (fun n i h => hupd _ i h)
    (fun r n => match d.resultIdx? (u.rowMajor.symm n) idx with
      | some i => fun i' => if i' = i then (fun _ b => b) (r i) (upd (u.rowMajor.symm n)) else r i'
      | none => r)
    ?_ ?_ ?_ i' (List.finRange u.numel) x
  · rcases key with ⟨h1, n, _, hn⟩ | ⟨h1, h2⟩
    · exact Or.inl ⟨h1, _, hn⟩
    · refine Or.inr ⟨h1, fun j hj => h2 (u.rowMajor j) (List.mem_finRange _) ?_⟩
      rw [Equiv.symm_apply_apply]; exact hj
  · intro r k i hk
    beta_reduce at hk ⊢
    rw [hk]
    dsimp only
    rw [if_pos rfl]
  · intro r k i i'' hk hi
    beta_reduce at hk ⊢
    rw [hk]
    dsimp only
    rw [if_neg hi]
  · intro r k hk
    beta_reduce at hk ⊢
    rw [hk]

/-- When, besides, every index of the operand is the target of some update, the scatter's result is `g`. -/
theorem scatter_eq_of_onto {s si u : Shape} {α : Type} {w : Nat} (d : ScatterDims s si u) (x : s.Idx → α) (idx : IVec si w)
    (upd : u.Idx → α) (g : s.Idx → α) (hupd : ∀ j i, d.resultIdx? j idx = some i → upd j = g i)
    (honto : ∀ i', ∃ j, d.resultIdx? j idx = some i') :
    Host.scatter d (fun _ b => b) x idx upd = g := by
  funext i'
  rcases scatter_by_target d x idx upd g hupd i' with ⟨h, _⟩ | ⟨_, h⟩
  · exact h
  · obtain ⟨j, hj⟩ := honto i'
    exact absurd hj (h j)

end Cert.ScatterByTarget
-- ==== Proof.LibSortOnto.lean ====
/-
  A two-operand sort reaches every entry of what it carries.

  A stable sort along an axis d permutes each fibre of that axis: the entry of the carried (second) operand at an index
  j of the result is the carried operand's entry at j with its d-th coordinate replaced by the position that the sort
  puts at j's place. Because the sorting permutation of a fibre is onto (it is a rearrangement of the fibre's positions),
  every entry of the carried operand appears somewhere in the result, on the same fibre. Neither the keys nor the
  comparator matter for this.
-/
import Idealize.ShloMosaic.PureOps
import Idealize.ShloMosaic.Lib.SortFacts

open Idealize.ShloMosaic

namespace Cert.SortOnto

/-- Replacing a coordinate twice is replacing it once, by the later value. -/
theorem along_along {s : Shape} (j : s.Idx) (d : Fin s.rank) (k k' : Fin (s.size d)) :
    (j.along d k).along d k' = j.along d k' := by
  unfold Shape.Idx.along
  exact Function.update_idem (β := fun a => Fin (s.size a)) (a := d) k k' j

/-- Replacing a coordinate by itself changes nothing. -/
theorem along_self {s : Shape} (j : s.Idx) (d : Fin s.rank) : j.along d (j d) = j := by
  unfold Shape.Idx.along
  exact Function.update_eq_self (β := fun a => Fin (s.size a)) d j

/-- The replaced coordinate is the new value. -/
theorem along_apply_self {s : Shape} (j : s.Idx) (d : Fin s.rank) (k : Fin (s.size d)) : (j.along d k) d = k := by
  unfold Shape.Idx.along
  exact Function.update_self (β := fun a => Fin (s.size a)) d k j

/-- Every entry of the carried operand of a two-operand sort along axis `d` is an entry of the sort's second result:
    for each index `j'` there is an index `j` (on the fibre of `j'`) at which the second result is `y j'`. -/
theorem snd_onto (s : Shape) (d : Fin s.rank) {α β : Type} (cmp : α × β → α × β → BitVec 1)
    (x : s.Idx → α) (y : s.Idx → β) (j' : s.Idx) :
    ∃ j : s.Idx, (Host.sort2 s d.val cmp x y).2 j = y j' := by
  unfold Host.sort2
  rw [dif_pos d.isLt]
  -- the order of the fibre of j', and the place k₀ at which the sort puts the position j' d
  obtain ⟨k₀, hk₀⟩ := sortedFrom_surjective
    (fun k k' => cmp (x (j'.along d k), y (j'.along d k)) (x (j'.along d k'), y (j'.along d k')) == 1#1) (j' d)
  refine ⟨j'.along d k₀, ?_⟩
  show y ((j'.along d k₀).along d (sortedFrom
    (fun k k' => cmp (x ((j'.along d k₀).along d k), y ((j'.along d k₀).along d k))
      (x ((j'.along d k₀).along d k'), y ((j'.along d k₀).along d k')) == 1#1) ((j'.along d k₀) d))) = y j'
  simp only [along_along, along_apply_self]
  rw [hk₀, along_self]

end Cert.SortOnto
-- ==== Proof.LibFlatTakePut.lean ====
/-
  Taking from and putting into a flat array at a column of index words.

  What x[idx] and x.at[idx].set(v) of a flat array x : [N] at an integer vector idx : [R] lower to, once the index
  vector is seen as a column [R, 1]: a gather, and a scatter, with one index component per row.

  The gather reads, for result position r, the operand at the word idx[r, 0] taken as a signed integer and clamped
  into [0, N - 1]. The scatter sends update position r to the operand position idx[r, 0], taken as a signed integer
  and not clamped; the update is dropped when that integer is not a position of the operand. So when the word denotes,
  as a signed integer, a position k of the operand, the update at r lands at k.
-/
import Idealize.ShloMosaic.Lib.ValueIdx

noncomputable section

namespace Cert.FlatTakePut

open Idealize.ShloMosaic Idealize.ShloMosaic.ValueIdx

/-- The index [r, 0] of the column of words, for position r of the vector. -/
abbrev colIdx {R : Nat} (j : (⟨1, ![R]⟩ : Shape).Idx) : (⟨2, ![R, 1]⟩ : Shape).Idx :=
  fun a => match a with | ⟨0, _⟩ => ⟨(j 0).val, (j 0).isLt⟩ | ⟨1, _⟩ => ⟨0, Nat.one_pos⟩

section Take
variable {α : Type}

/-- The gather's dimension numbers for an operand [N], start indices [R, 1] and result [R]. -/
abbrev takeFlatDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- The gather read at position `j`: the operand at the word `idx[j, 0]`, read signed and clamped into [0, N - 1]. -/
theorem gather_flat_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (j : (⟨1, ![R]⟩ : Shape).Idx) :
    Host.gather (takeFlatDims N R wf) x idx j = x (ix1 ⟨min (idx (colIdx j)).toInt.toNat (N - 1), by omega⟩) := by
  unfold Host.gather
  refine congrArg x ?_
  funext a
  obtain rfl : a = 0 := Subsingleton.elim _ _
  refine Fin.ext ?_
  show (takeFlatDims N R wf).start j idx 0 + (takeFlatDims N R wf).batchCoord j 0 + (takeFlatDims N R wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (takeFlatDims N R wf).startIndexMap from List.mem_singleton.mpr rfl)]
  have hsi : (takeFlatDims N R wf).siIdx j ⟨List.idxOf (0 : Fin 1) (takeFlatDims N R wf).startIndexMap,
      List.idxOf_lt_length_iff.2 (List.mem_singleton.mpr rfl)⟩ = colIdx j := by
    funext b; refine Fin.ext ?_
    match b with
    | ⟨0, _⟩ => rfl
    | ⟨1, _⟩ => rfl
  rw [hsi]
  rfl

end Take

section Put

/-- The scatter's dimension numbers for an operand [N], scatter indices [R, 1] and updates [R]. -/
abbrev putFlatDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- Where update `j` lands: when the word `idx[j, 0]`, read signed, is the position `k` of the operand, at `k`. -/
theorem resultIdx_flat {N R w : Nat} (wf : ScatterDims.WF ⟨1, ![N]⟩ ⟨2, ![R, 1]⟩ ⟨1, ![R]⟩ [] [0] [0] 1)
    (idx : IVec ⟨2, ![R, 1]⟩ w) (j : (⟨1, ![R]⟩ : Shape).Idx) (k : Fin N)
    (hk : (idx (colIdx j)).toInt = (k.val : Int)) :
    (putFlatDims N R wf).resultIdx? j idx = some (ix1 k) := by
  have hs : ∀ a : Fin 1, (putFlatDims N R wf).start j idx a + ((putFlatDims N R wf).window j a : Int) = (k.val : Int) := by
    intro a
    obtain rfl : a = 0 := Subsingleton.elim _ _
    have hw : (putFlatDims N R wf).window j 0 = 0 := by
      unfold ScatterDims.window
      rw [dif_neg]
      intro h
      have := (List.mem_filter.1 h).2
      simp at this
    have hst : (putFlatDims N R wf).start j idx 0 = (k.val : Int) := by
      unfold ScatterDims.start
      rw [dif_pos (show (0 : Fin 1) ∈ (putFlatDims N R wf).scatterDimsToOperandDims from List.mem_singleton.mpr rfl)]
      have hsi : (putFlatDims N R wf).siIdx j ⟨List.idxOf (0 : Fin 1) (putFlatDims N R wf).scatterDimsToOperandDims,
          List.idxOf_lt_length_iff.2 (List.mem_singleton.mpr rfl)⟩ = colIdx j := by
        funext b; refine Fin.ext ?_
        match b with
        | ⟨0, _⟩ => rfl
        | ⟨1, _⟩ => rfl
      rw [hsi, hk]
    rw [hst, hw]
    simp
  unfold ScatterDims.resultIdx?
  have hin : ∀ a : Fin 1, 0 ≤ (putFlatDims N R wf).start j idx a + ((putFlatDims N R wf).window j a : Int)
      ∧ (putFlatDims N R wf).start j idx a + ((putFlatDims N R wf).window j a : Int) < ((⟨1, ![N]⟩ : Shape).size a : Int) := by
    intro a
    rw [hs a]
    obtain rfl : a = 0 := Subsingleton.elim _ _
    exact ⟨Int.natCast_nonneg _, by exact_mod_cast k.isLt⟩
  rw [dif_pos hin]
  refine congrArg some ?_
  funext a
  obtain rfl : a = 0 := Subsingleton.elim _ _
  refine Fin.ext ?_
  show ((putFlatDims N R wf).start j idx 0 + ((putFlatDims N R wf).window j 0 : Int)).toNat = k.val
  rw [hs 0]
  exact Int.toNat_natCast _

end Put

end Cert.FlatTakePut

end
-- ==== Proof.LibArgsort.lean ====
/-
  The range of an argsort.

  jax's argsort along an axis d is a two-operand stable sort that carries, beside the keys, the
  counter 0, 1, 2, ... of that axis. Whatever the keys and the comparator are, the sort permutes each
  fibre of the axis: the carried operand's entry at an index j is the carried operand's entry at j
  with its d-th coordinate replaced by some position k of the axis. For the counter this entry is the
  32-bit word of k, a number below the axis' extent. Only this range is stated here (not that the
  entries of a fibre are distinct).
-/
import Idealize.ShloMosaic.PureOps

open Idealize.ShloMosaic

namespace Cert.Argsort

/-- The second result of a two-operand sort along axis d, at j, is the second operand somewhere on j's fibre. -/
theorem snd_eq_along (s : Shape) (d : Fin s.rank) {α β : Type} (cmp : α × β → α × β → BitVec 1)
    (x : s.Idx → α) (y : s.Idx → β) (j : s.Idx) :
    ∃ k : Fin (s.size d), (Host.sort2 s d.val cmp x y).2 j = y (j.along d k) := by
  unfold Host.sort2
  rw [dif_pos d.isLt]
  exact ⟨_, rfl⟩

/-- Each entry of an argsort along axis d is the 32-bit word of a position of that axis. -/
theorem snd_eq_ofNat (s : Shape) (d : Fin s.rank) {α : Type} (cmp : α × BitVec 32 → α × BitVec 32 → BitVec 1)
    (x : s.Idx → α) (j : s.Idx) :
    ∃ k : Fin (s.size d), (Host.sort2 s d.val cmp x (iotaInDim s 32 d)).2 j = BitVec.ofNat 32 k.val := by
  obtain ⟨k, hk⟩ := snd_eq_along s d cmp x (iotaInDim s 32 d) j
  refine ⟨k, hk.trans ?_⟩
  show BitVec.ofNat 32 ((Function.update j d k) d).val = _
  rw [Function.update_self]

/-- So, read as a number, it is below the axis' extent (for an extent a 32-bit word can hold). -/
theorem snd_toNat_lt (s : Shape) (d : Fin s.rank) (hd : s.size d ≤ 2 ^ 32) {α : Type}
    (cmp : α × BitVec 32 → α × BitVec 32 → BitVec 1) (x : s.Idx → α) (j : s.Idx) :
    ((Host.sort2 s d.val cmp x (iotaInDim s 32 d)).2 j).toNat < s.size d := by
  obtain ⟨k, hk⟩ := snd_eq_ofNat s d cmp x j
  rw [hk, BitVec.toNat_ofNat, Nat.mod_eq_of_lt (lt_of_lt_of_le k.isLt hd)]
  exact k.isLt

end Cert.Argsort
-- ==== Proof.LibWordIndex.lean ====
/-
  Small numbers as 32-bit index words.

  An index computed in 32-bit words is read back by a gather as a SIGNED integer; jax first adds the
  axis' extent to a negative index. For a word that denotes a number below 2^31 neither matters: the
  signed reading is the number itself and the sign test is false. And 64 * r + w, computed in words
  for r < 16 and a word w below 64, denotes 64 r + w (nothing wraps).
-/
import Idealize.ShloMosaic.Lib.ValueIdx

open Idealize.ShloMosaic

namespace Cert.WordIndex

/-- The signed reading of a word below 2^31, as a natural number, is the number it denotes. -/
theorem toInt_toNat_of_lt (v : BitVec 32) (hv : v.toNat < 2 ^ 31) : v.toInt.toNat = v.toNat := by
  rw [BitVec.toInt_eq_toNat_cond]
  have : 2 * v.toNat < 2 ^ 32 := by omega
  rw [if_pos this]
  exact Int.toNat_natCast _

/-- A word below 2^31 is not negative: the select that would add the extent keeps the word. -/
theorem select_slt_zero (v a : BitVec 32) (hv : v.toNat < 2 ^ 31) :
    Scalar.select (IntOp.cmpi .slt v 0#32) a v = v := by
  have h : IntOp.cmpi .slt v 0#32 = 0#1 := by
    have hs : v.slt 0#32 = false := by
      rw [BitVec.slt, BitVec.toInt_eq_toNat_cond, if_pos (by omega : 2 * v.toNat < 2 ^ 32)]
      simp
    simp [IntOp.cmpi, hs]
  rw [h]
  exact ValueIdx.select_zero a v

/-- A counter below 2^32, as a word, denotes itself. -/
theorem toNat_ofNat_of_lt {k : ℕ} (hk : k < 2 ^ 32) : (BitVec.ofNat 32 k).toNat = k := by
  rw [BitVec.toNat_ofNat, Nat.mod_eq_of_lt hk]

/-- 64 r + w in words, for a row r < 16 and a column word w below 64, denotes 64 r + w. -/
theorem toNat_row_add (r : ℕ) (hr : r < 16) (w : BitVec 32) (hw : w.toNat < 64) :
    (IntOp.addi (IntOp.muli (BitVec.ofNat 32 r) 64#32) w).toNat = r * 64 + w.toNat := by
  show ((BitVec.ofNat 32 r) * 64#32 + w).toNat = _
  rw [BitVec.toNat_add, BitVec.toNat_mul, BitVec.toNat_ofNat]
  show (r % 2 ^ 32 * 64 % 2 ^ 32 + w.toNat) % 2 ^ 32 = _
  omega

end Cert.WordIndex
-- ==== Proof.RoundTrip.lean ====
/-
  The reference's compress-and-decompress round trip is a masked copy.

  The reference flattens x to a vector of N = 8192 * 8192 entries, marks the non-zero ones (mask = flat != 0), sorts
  the positions 0, 1, ..., N - 1 by the key "entry is zero" (an argsort: a stable two-operand sort that carries the
  counter of the positions), reads mask and flat through the sorted positions, keeps the entry where the mask holds and
  0 where it does not, writes these values back at the sorted positions into a vector of zeros, and folds the result
  back to 8192 x 8192.

  Write order for the sorted positions. Three facts about it carry the whole argument, and none of them depends on
  what the keys are:
    (1) every entry of order is a position: as a 32-bit word it denotes a number below N (so it is not negative, the
        "add N to a negative index" step keeps it, the gather's clamp keeps it and the scatter does not drop it);
    (2) every position occurs in order: a sort rearranges the positions, so none is lost;
    (3) the value written for the sorted place r depends only on the position order[r]: it is
        masked (order[r]), where masked i = (flat i if mask i, else 0).
  By (3) all updates that land at one position i carry the same value masked i, so the order in which the scatter
  applies them is irrelevant; by (2) every position receives an update. Hence the scattered vector is masked itself,
  and folding it back to two axes undoes the flattening: the result at (p, q) is x (p, q) where x (p, q) != 0 and 0
  elsewhere. That the order is SORTED (non-zeros first, ties in order) plays no part.
-/
import proofs.«159575_j69380901700186_2_alg».proof.Proof.Gen.ReferenceIdeal.Read
import proofs.«159575_j69380901700186_2_alg».proof.Proof.LibScatterByTarget
import proofs.«159575_j69380901700186_2_alg».proof.Proof.LibSortOnto
import proofs.«159575_j69380901700186_2_alg».proof.Proof.LibFlatTakePut
import proofs.«159575_j69380901700186_2_alg».proof.Proof.LibArgsort
import proofs.«159575_j69380901700186_2_alg».proof.Proof.LibWordIndex
import Idealize.ShloMosaic.Lib.ValueIdx

noncomputable section

namespace Cert.RoundTrip

open Cert.ReferenceIdeal Cert.ReferenceIdeal.Gen Cert.ReferenceIdeal.Read Idealize.ShloMosaic Idealize.ShloMosaic.TcCoe
open Idealize.ShloMosaic.ValueIdx Cert.FlatTakePut

variable {F : FTy → Type} [FloatOps F]

/-! ## The sorted positions -/

/-- (1) Each sorted position, as a word, denotes a number below N. -/
theorem order_lt (x0 : (⟨S8192x8192, .f32⟩ : BufTy).Contents (Elt F)) (j : S67108864.Idx) : (val_main_v5 (F := F) x0 j).toNat < 67108864 := by
  unfold val_main_v5 val_main_call1_v0
  exact Cert.Argsort.snd_toNat_lt S67108864 (0 : Fin 1) (by show (67108864 : Nat) ≤ 2 ^ 32; norm_num)
    comparator_i32_i32_d0 (val_main_v4 (F := F) x0) j

/-- (2) Every position k occurs among the sorted positions. -/
theorem order_onto (x0 : (⟨S8192x8192, .f32⟩ : BufTy).Contents (Elt F)) (k : Fin 67108864) :
    ∃ j : S67108864.Idx, val_main_v5 (F := F) x0 j = BitVec.ofNat 32 k.val := by
  unfold val_main_v5 val_main_call1_v0
  obtain ⟨j, hj⟩ := Cert.SortOnto.snd_onto S67108864 (0 : Fin 1) comparator_i32_i32_d0 (val_main_v4 (F := F) x0)
    (iotaInDim S67108864 32 0) (ix1 k)
  exact ⟨j, hj⟩

/-- The sorted position at place `j`, as a position of the flat vector. -/
def pos (x0 : (⟨S8192x8192, .f32⟩ : BufTy).Contents (Elt F)) (j : S67108864.Idx) : Fin 67108864 := ⟨(val_main_v5 (F := F) x0 j).toNat, order_lt x0 j⟩

theorem order_lt31 (x0 : (⟨S8192x8192, .f32⟩ : BufTy).Contents (Elt F)) (j : S67108864.Idx) : (val_main_v5 (F := F) x0 j).toNat < 2 ^ 31 :=
  lt_trans (order_lt x0 j) (by norm_num)

/-! ## A sorted position is not negative: adding N to negative indices changes nothing

The program normalises the index vector three times (once for each of its three uses); each copy is the vector of
sorted positions itself. -/

theorem norm_first (x0 : (⟨S8192x8192, .f32⟩ : BufTy).Contents (Elt F)) (j : S67108864.Idx) : val_main_v10 (F := F) x0 j = val_main_v5 (F := F) x0 j := by
  rw [val_main_v10_apply, val_main_v7_apply, val_main_v6_apply, val_main_c_1_apply]
  exact Cert.WordIndex.select_slt_zero _ _ (order_lt31 x0 j)

theorem norm_second (x0 : (⟨S8192x8192, .f32⟩ : BufTy).Contents (Elt F)) (j : S67108864.Idx) : val_main_v17 (F := F) x0 j = val_main_v5 (F := F) x0 j := by
  rw [val_main_v17_apply, val_main_v14_apply, val_main_v13_apply, val_main_c_3_apply]
  exact Cert.WordIndex.select_slt_zero _ _ (order_lt31 x0 j)

theorem norm_third (x0 : (⟨S8192x8192, .f32⟩ : BufTy).Contents (Elt F)) (j : S67108864.Idx) : val_main_v26 (F := F) x0 j = val_main_v5 (F := F) x0 j := by
  rw [val_main_v26_apply, val_main_v23_apply, val_main_v22_apply, val_main_c_7_apply]
  exact Cert.WordIndex.select_slt_zero _ _ (order_lt31 x0 j)

/-- The index vector seen as a column [N, 1]: its entry (j, 0) is entry j of the vector. -/
theorem col_first (x0 : (⟨S8192x8192, .f32⟩ : BufTy).Contents (Elt F)) (j : S67108864.Idx) :
    val_main_v11 (F := F) x0 (colIdx j) = val_main_v5 (F := F) x0 j := by
  rw [val_main_v11_apply]
  have e : idx_main_v11 (colIdx j) = j := by
    funext a; match a with | ⟨0, _⟩ => rfl
  rw [e, norm_first]

theorem col_second (x0 : (⟨S8192x8192, .f32⟩ : BufTy).Contents (Elt F)) (j : S67108864.Idx) :
    val_main_v18 (F := F) x0 (colIdx j) = val_main_v5 (F := F) x0 j := by
  rw [val_main_v18_apply]
  have e : idx_main_v18 (colIdx j) = j := by
    funext a; match a with | ⟨0, _⟩ => rfl
  rw [e, norm_second]

theorem col_third (x0 : (⟨S8192x8192, .f32⟩ : BufTy).Contents (Elt F)) (j : S67108864.Idx) :
    val_main_v27 (F := F) x0 (colIdx j) = val_main_v5 (F := F) x0 j := by
  rw [val_main_v27_apply]
  have e : idx_main_v27 (colIdx j) = j := by
    funext a; match a with | ⟨0, _⟩ => rfl
  rw [e, norm_third]

/-! ## Reading mask and flat through the sorted positions -/

/-- The clamp of a gather keeps a sorted position. -/
theorem clamp_pos (x0 : (⟨S8192x8192, .f32⟩ : BufTy).Contents (Elt F)) (j : S67108864.Idx) (v : BitVec 32) (hv : v = val_main_v5 (F := F) x0 j) :
    min v.toInt.toNat (67108864 - 1) = (pos x0 j).val := by
  subst hv
  rw [Cert.WordIndex.toInt_toNat_of_lt _ (order_lt31 x0 j)]
  have := order_lt x0 j
  show min (val_main_v5 (F := F) x0 j).toNat (67108864 - 1) = (val_main_v5 (F := F) x0 j).toNat
  omega

/-- The mask gathered at place `j` is the mask at the sorted position. -/
theorem mask_gathered (x0 : (⟨S8192x8192, .f32⟩ : BufTy).Contents (Elt F)) (j : S67108864.Idx) :
    val_main_v12 (F := F) x0 j = val_main_v2 (F := F) x0 (ix1 (pos x0 j)) := by
  unfold val_main_v12
  refine (gather_flat_apply (N := 67108864) (R := 67108864) (by norm_num) _ (val_main_v2 (F := F) x0)
    (val_main_v11 (F := F) x0) j).trans ?_
  exact congrArg (val_main_v2 (F := F) x0) (congrArg ix1 (Fin.ext (clamp_pos x0 j _ (col_first x0 j))))

/-- The entry gathered at place `j` is the flat vector's entry at the sorted position. -/
theorem flat_gathered (x0 : (⟨S8192x8192, .f32⟩ : BufTy).Contents (Elt F)) (j : S67108864.Idx) :
    val_main_v19 (F := F) x0 j = val_main_v0 (F := F) x0 (ix1 (pos x0 j)) := by
  unfold val_main_v19
  refine (gather_flat_apply (N := 67108864) (R := 67108864) (by norm_num) _ (val_main_v0 (F := F) x0)
    (val_main_v18 (F := F) x0) j).trans ?_
  exact congrArg (val_main_v0 (F := F) x0) (congrArg ix1 (Fin.ext (clamp_pos x0 j _ (col_second x0 j))))

/-! ## The values written back -/

/-- The flat vector with its zero entries replaced by the constant 0: the entry where the mask holds, else 0. -/
def masked (x0 : (⟨S8192x8192, .f32⟩ : BufTy).Contents (Elt F)) : S67108864.Idx → Elt F .f32 :=
  fun i => Scalar.select (val_main_v2 (F := F) x0 i) (val_main_v0 (F := F) x0 i) (val_main_call2_v0 (F := F) i)

/-- (3) The value written for place `j` is `masked` at the sorted position of `j`. -/
theorem update_eq (x0 : (⟨S8192x8192, .f32⟩ : BufTy).Contents (Elt F)) (j : S67108864.Idx) : val_main_v20 (F := F) x0 j = masked x0 (ix1 (pos x0 j)) := by
  have e : val_main_call2_v0 (F := F) j = val_main_call2_v0 (F := F) (ix1 (pos x0 j)) :=
    (val_main_call2_v0_apply j).trans (val_main_call2_v0_apply (ix1 (pos x0 j))).symm
  rw [val_main_v20_apply, mask_gathered, flat_gathered, e]
  rfl

/-- A sorted position read as a signed integer is the number it denotes. -/
theorem toInt_eq_toNat (v : BitVec 32) (hv : v.toNat < 2 ^ 31) : v.toInt = (v.toNat : Int) := by
  rw [BitVec.toInt_eq_toNat_cond, if_pos (by omega)]

/-- The update for place `j` lands at the sorted position of `j`. -/
theorem lands (x0 : (⟨S8192x8192, .f32⟩ : BufTy).Contents (Elt F)) (j : S67108864.Idx) :
    scatter_S67108864_S67108864x1_S67108864_n_0_0_1.resultIdx? j (val_main_v27 (F := F) x0) = some (ix1 (pos x0 j)) := by
  refine resultIdx_flat (N := 67108864) (R := 67108864) _ (val_main_v27 (F := F) x0) j (pos x0 j) ?_
  rw [col_third]
  exact toInt_eq_toNat _ (order_lt31 x0 j)

/-- The scattered vector is `masked`. -/
theorem scattered_eq (x0 : (⟨S8192x8192, .f32⟩ : BufTy).Contents (Elt F)) : val_main_v28 (F := F) x0 = masked x0 := by
  unfold val_main_v28
  refine Cert.ScatterByTarget.scatter_eq_of_onto _ _ _ _ (masked x0) ?_ ?_
  · intro j i h
    rw [lands] at h
    rw [← Option.some.inj h]
    exact update_eq x0 j
  · intro i'
    obtain ⟨j, hj⟩ := order_onto x0 (i' 0)
    refine ⟨j, (lands x0 j).trans (congrArg some ((congrArg ix1 (Fin.ext ?_)).trans (eq_ix1 i').symm))⟩
    show (val_main_v5 (F := F) x0 j).toNat = (i' 0).val
    rw [hj]
    exact Cert.WordIndex.toNat_ofNat_of_lt (lt_trans (i' 0).isLt (by norm_num))

/-! ## Folding back to two axes -/

/-- Position p * 8192 + q of the flat vector is entry (p, q) of the array. -/
theorem unflatten (i : S8192x8192.Idx) : idx_main_v0 (idx_main_v29 i) = i := by
  have h0 : (i 0).val < 8192 := (i 0).isLt
  have h1 : (i 1).val < 8192 := (i 1).isLt
  funext a
  refine Fin.ext ?_
  match a with
  | ⟨0, _⟩ => show ((i 0).val * 8192 + (i 1).val) / 8192 = (i 0).val; omega
  | ⟨1, _⟩ => show ((i 0).val * 8192 + (i 1).val) % 8192 = (i 1).val; omega

/-- THE REFERENCE'S RESULT, entry by entry: the entry of x where it is not the constant 0 (compared "unordered or not
    equal"), and the constant 0 elsewhere. -/
theorem result_apply (x0 : (⟨S8192x8192, .f32⟩ : BufTy).Contents (Elt F)) (i : S8192x8192.Idx) :
    val_main_v29 (F := F) x0 i
      = Scalar.select (FloatOps.cmpf .une (x0 i) (FloatOps.ofBits .f32 0x00000000#32)) (x0 i) (FloatOps.ofBits .f32 0x00000000#32) := by
  rw [val_main_v29_apply, scattered_eq]
  show Scalar.select (val_main_v2 (F := F) x0 (idx_main_v29 i)) (val_main_v0 (F := F) x0 (idx_main_v29 i))
    (val_main_call2_v0 (F := F) (idx_main_v29 i)) = _
  rw [val_main_v2_apply, val_main_v0_apply, unflatten, val_main_v1_apply, val_main_cst_apply, val_main_call2_v0_apply,
    val_main_cst_5_apply]

end Cert.RoundTrip

end
-- ==== Proof.lean ====
/-
  A masked copy against a compress-and-decompress round trip.

  The kernel walks the 8192 x 8192 array x in 32 blocks of 256 whole rows and writes, entry by entry, x where x is not
  zero and the constant 0 where it is: out (p, q) = (x (p, q) if x (p, q) != 0, else 0). The blocks tile the array, so
  this holds for every entry.

  The reference flattens x, sorts the positions of the flat vector so that the non-zero entries come first, reads the
  entries through the sorted positions, zeroes those whose mask is off, writes the values back at the sorted positions
  into a vector of zeros and folds it back to two axes. Because a sort only rearranges the positions, every position
  is written, and what is written at a position depends on that position alone: the result is again
  (x (p, q) if x (p, q) != 0, else 0), entry by entry (Proof/RoundTrip.lean).

  The two programs differ in one detail: the kernel's test is "ordered and not equal", the reference's "unordered or
  not equal". On the extended reals there is no unordered pair, and both are the test x != 0. No finiteness of x is
  used, and no arithmetic on extended reals at all: both sides select between an entry of x and the constant 0.

  The kernel is its own idealization (no operation was rewritten), so that claim is trivial; each program's frame is its
  value run with the result forgotten.
-/
import proofs.«159575_j69380901700186_2_alg».proof.Defs
import proofs.«159575_j69380901700186_2_alg».proof.Proof.Gen.Kernel.Frame
import proofs.«159575_j69380901700186_2_alg».proof.Proof.Gen.KernelIdeal.Value
import proofs.«159575_j69380901700186_2_alg».proof.Proof.Gen.Pre_finite_inputs
import proofs.«159575_j69380901700186_2_alg».proof.Proof.Gen.ReferenceIdeal.Run
import proofs.«159575_j69380901700186_2_alg».proof.Proof.Gen.ReferenceIdeal.Read
import proofs.«159575_j69380901700186_2_alg».proof.Proof.RoundTrip
import Idealize.ShloMosaic.Adequacy
import Idealize.ShloMosaic.Init

noncomputable section

namespace Cert.Proof

open Idealize.ShloMosaic Idealize.SL.Sem

/-- On the extended reals the reference's result array is the kernel's function of x: entry by entry both keep the
    entry where it differs from 0 and put 0 elsewhere, the two comparisons ("unordered or not equal", "ordered and
    not equal") being one test there. -/
theorem masked_copy (x : Cert.ReferenceIdeal.S8192x8192.Idx → Elt Ideal .f32) :
    Cert.ReferenceIdeal.Read.val_main_v29 (F := Ideal) x = Cert.KernelIdeal.Value.G1 (F := Ideal) x := by
  funext i
  rw [Cert.RoundTrip.result_apply]
  rfl

theorem frame_KernelIdeal : frame_KernelIdeal := fun m ρ _ =>
  (θ_run Cert.KernelIdeal.defs _ _).mono (fun _ h c => (h c).2) (Cert.KernelIdeal.Value.run (F := Ideal) m ρ)

theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on x both programs end, the kernel with its function of x in its result array and the
    reference with its composed term, which is that function (`masked_copy`). -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, hagree c]
  exact masked_copy _

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
